-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128x256 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : FVec F S256x128 .f32) (main_arg3 : FVec F S256x128 .f32) (main_arg4 : FVec F S256 .f32) (main_arg5 : FVec F S128x256 .f32) (main_arg6 : FVec F S128x256 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S50000 : Shape := ⟨1, ![50000]⟩
abbrev S640000x1 : Shape := ⟨2, ![640000, 1]⟩
abbrev S50000x1 : Shape := ⟨2, ![50000, 1]⟩
abbrev S640000x128 : Shape := ⟨2, ![640000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S640000x256 : Shape := ⟨2, ![640000, 256]⟩
abbrev S1x128 : Shape := ⟨2, ![1, 128]⟩

abbrev nBuf : Space → Nat
  | .hbm => 59
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128x256, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S50000, .f32⟩
  | .hbm, ⟨16, _⟩ => ⟨S640000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S50000x128, .f32⟩
  | .hbm, ⟨36, _⟩ => ⟨S640000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x256, .f32⟩
  | .hbm, ⟨41, _⟩ => ⟨S50000x256, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S50000x256, .f32⟩
  | .hbm, ⟨53, _⟩ => ⟨S640000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x128, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S128x256, .f32⟩
  | .local _ .vmem, ⟨14, _⟩ => ⟨S128x256, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S5000x256_S5000x256 : S5000x256.ShapeCasts S5000x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S640000x1_S640000_n_0_0_1_wf : ScatterDims.WF S50000 S640000x1 S640000 [] [0] [0] 1
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x128_S128x256_S5000x256_1_0_0_1_n_n_wf : DotDims.WF S5000x128 S128x256 S5000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x256.size a ≤ S50000x256.size a
  hwx1_1 : ∀ i : grid1.Coords, EltTy.bits .f32 = 32 ∨ (Rect.block (s := S50000x256) S5000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128x256, .f32⟩
  | .hbm, ⟨7, _⟩ => ⟨S128, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S50000x128, .f32⟩
  | .hbm, ⟨23, _⟩ => ⟨S640000x1, .i32⟩
  | .hbm, ⟨24, _⟩ => ⟨S50000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S50000, .f32⟩
  | .hbm, ⟨29, _⟩ => ⟨S640000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x256, .f32⟩
  | .hbm, ⟨38, _⟩ => ⟨S50000x256, .f32⟩
  | .hbm, ⟨39, _⟩ => ⟨S128x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x256, .f32⟩
  | .hbm, ⟨57, _⟩ => ⟨S_, .f32⟩
  | .hbm, ⟨58, _⟩ => ⟨S50000x256, .f32⟩
  | .hbm, ⟨59, _⟩ => ⟨S640000x1, .i32⟩
  | .hbm, ⟨60, _⟩ => ⟨S50000x256, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S50000, .f32⟩
  | .hbm, ⟨65, _⟩ => ⟨S640000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S256x128, .f32⟩
  | .hbm, ⟨74, _⟩ => ⟨S50000x128, .f32⟩
  | .hbm, ⟨75, _⟩ => ⟨S256x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  dot_S50000x128_S128x256_S50000x256_1_0_0_1_n_n_wf : DotDims.WF S50000x128 S128x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KRun.lean ====
/-
  The idealized kernel's run with its result named.

  @main is four segments: host operations, the first layer's pipelined kernel, host operations, the second layer's
  pipelined kernel.  Every weakly fair execution terminates, nothing faulting; the result buffer ends at the contents
  the last segment boundary records for it ("W4", the fold of the segments' effects from the launch memory) and the
  argument arrays end as launched.
-/
import proofs.«138439_j25271587570231_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KRun

end
-- ==== Proof.LibMatProd.lean ====
/-
  The product of two rank-2 arrays of extended reals, entry by entry, and two ways a program spells it.

  `entry A B p q` is the sum over `l` of `A (p, l) * B (l, q)`; `mm A B` is the array of these entries.  A matrix
  unit's product of rank-2 operands accumulated onto the zero array, contracting the columns of the left operand
  against the rows of the right one, is `entry` at every pair of coordinates (`matmul_zero_entry`): the accumulator
  adds nothing and the contraction's one-axis index set is re-indexed by its coordinate.  A sum written through two
  index maps that put `(row of i, l)` on the left and `(l, column of i)` on the right is `mm` at `i` (`sum_eq_mm`).
  Everything is over generic extents; indices are built from coordinates.
-/
import Idealize.ShloMosaic.Lib.ValueIdx
import Idealize.ShloMosaic.PureOps.Ideal.Laws

noncomputable section

open scoped BigOperators

namespace MatProd

open Idealize.ShloMosaic Idealize.ShloMosaic.ValueIdx

/-- Entry `(p, q)` of the product of an `n × k` array and a `k × m` array. -/
def entry {n k m : ℕ} (A : (⟨2, ![n, k]⟩ : Shape).Idx → EReal) (B : (⟨2, ![k, m]⟩ : Shape).Idx → EReal)
    (p : Fin n) (q : Fin m) : EReal :=
  ∑ l : Fin k, A (ix2 p l) * B (ix2 l q)

/-- The product as an array: at an index, the entry at that index's two coordinates. -/
def mm {n k m : ℕ} (A : (⟨2, ![n, k]⟩ : Shape).Idx → EReal) (B : (⟨2, ![k, m]⟩ : Shape).Idx → EReal) :
    (⟨2, ![n, m]⟩ : Shape).Idx → EReal :=
  fun i => entry A B ⟨(i 0).val, idx2_lt0 i⟩ ⟨(i 1).val, idx2_lt1 i⟩

/-- At an index given by its coordinates the product array reads the entry. -/
theorem mm_ix2 {n k m : ℕ} (A : (⟨2, ![n, k]⟩ : Shape).Idx → EReal) (B : (⟨2, ![k, m]⟩ : Shape).Idx → EReal)
    (p : Fin n) (q : Fin m) : mm A B (ix2 p q) = entry A B p q := rfl

/-- A sum over `l` of a left factor read at `(row of i, l)` times a right factor read at `(l, column of i)` is the
    product array at `i`, however the two index maps are spelt. -/
theorem sum_eq_mm {n k m : ℕ} (A : (⟨2, ![n, k]⟩ : Shape).Idx → EReal) (B : (⟨2, ![k, m]⟩ : Shape).Idx → EReal)
    (i : (⟨2, ![n, m]⟩ : Shape).Idx) (li : Fin k → (⟨2, ![n, k]⟩ : Shape).Idx) (ri : Fin k → (⟨2, ![k, m]⟩ : Shape).Idx)
    (hl : ∀ l, li l = ix2 ⟨(i 0).val, idx2_lt0 i⟩ l) (hr : ∀ l, ri l = ix2 l ⟨(i 1).val, idx2_lt1 i⟩) :
    ∑ l : Fin k, A (li l) * B (ri l) = mm A B i :=
  Finset.sum_congr rfl fun l _ => by rw [hl l, hr l]

/-- A matrix unit's product of rank-2 operands onto the zero accumulator is the product's entry.  `hr`, `hs`: one
    axis of extent `k` is contracted.  `hl0` … `hr1`: the left operand is read at (row of the result, contracted
    coordinate), the right operand at (contracted coordinate, column of the result). -/
theorem matmul_zero_entry {n k m : ℕ} {φ₁ φ₂ : FTy}
    (d : DotDims (⟨2, ![n, k]⟩ : Shape) (⟨2, ![k, m]⟩ : Shape) (⟨2, ![n, m]⟩ : Shape)) (prec : Option ContractPrecision)
    (hr : d.contr.rank = 1) (hs : d.contr.size ⟨0, by omega⟩ = k)
    (hl0 : ∀ (j : (⟨2, ![n, m]⟩ : Shape).Idx) (c : d.contr.Idx), (d.lhsIdx j c 0).val = (j 0).val)
    (hl1 : ∀ (j : (⟨2, ![n, m]⟩ : Shape).Idx) (c : d.contr.Idx), (d.lhsIdx j c 1).val = (c ⟨0, by omega⟩).val)
    (hr0 : ∀ (j : (⟨2, ![n, m]⟩ : Shape).Idx) (c : d.contr.Idx), (d.rhsIdx j c 0).val = (c ⟨0, by omega⟩).val)
    (hr1 : ∀ (j : (⟨2, ![n, m]⟩ : Shape).Idx) (c : d.contr.Idx), (d.rhsIdx j c 1).val = (j 1).val)
    (lhs : FVec Ideal (⟨2, ![n, k]⟩ : Shape) φ₁) (rhs : FVec Ideal (⟨2, ![k, m]⟩ : Shape) φ₂) (p : Fin n) (q : Fin m) :
    FloatOps.matmul d prec lhs rhs (constant (F := Ideal) (⟨2, ![n, m]⟩ : Shape) .f32 0x00000000#32) (ix2 p q)
      = entry lhs rhs p q := by
  rw [Ideal.matmul_constant_zero_apply, ← Equiv.sum_comp (contrEquiv1 d k hr hs).symm]
  unfold entry
  refine Finset.sum_congr rfl fun l _ => ?_
  have hk := contrEquiv1_symm_val d k hr hs l
  have el : d.lhsIdx (ix2 p q) ((contrEquiv1 d k hr hs).symm l) = ix2 p l := funext fun a => Fin.ext (by
    match a with
    | ⟨0, _⟩ => exact hl0 _ _
    | ⟨1, _⟩ => exact (hl1 _ _).trans hk)
  have er : d.rhsIdx (ix2 p q) ((contrEquiv1 d k hr hs).symm l) = ix2 l q := funext fun a => Fin.ext (by
    match a with
    | ⟨0, _⟩ => exact (hr0 _ _).trans hk
    | ⟨1, _⟩ => exact hr1 _ _)
  rw [el, er]

end MatProd

end
-- ==== Proof.LibProdRows.lean ====
/-
  Two facts about products of rank-2 arrays of extended reals, over generic extents, beside `MatProd.entry` / `mm`.

  First, a dimension-numbers record that contracts the columns of its left operand against the rows of its right
  one (`MatProd.Plain`: one contracted axis of the inner extent, the left operand read at (result row, contracted
  coordinate), the right operand at (contracted coordinate, result column)) makes both spellings of a product the
  array `mm`: the matrix unit's product onto the zero accumulator (`matmul_zero_mm`) and the host's
  dot_general (`dotGeneral_mm`).

  Second, the band law `entry_mm_rows`: if row `p` of a short array `a` is row `r` of a tall array `A`, then
  entry (p, q) of (a * W1) * W2 is entry (r, q) of (A * W1) * W2.  Each entry of a two-fold product depends on one
  row of the leftmost factor only, so a band of rows of the product is the product of the band.  No finiteness is
  used: the two sides are the same sums of the same products.
-/
import proofs.«138439_j25271587570231_1_alg».proof.Proof.LibMatProd

noncomputable section

open scoped BigOperators

namespace MatProd

open Idealize.ShloMosaic Idealize.ShloMosaic.ValueIdx

/-- The record contracts the left operand's columns against the right operand's rows, and nothing else. -/
structure Plain {n k m : ℕ} (d : DotDims (⟨2, ![n, k]⟩ : Shape) (⟨2, ![k, m]⟩ : Shape) (⟨2, ![n, m]⟩ : Shape)) : Prop where
  hr : d.contr.rank = 1
  hs : d.contr.size ⟨0, by omega⟩ = k
  hl0 : ∀ (j : (⟨2, ![n, m]⟩ : Shape).Idx) (c : d.contr.Idx), (d.lhsIdx j c 0).val = (j 0).val
  hl1 : ∀ (j : (⟨2, ![n, m]⟩ : Shape).Idx) (c : d.contr.Idx), (d.lhsIdx j c 1).val = (c ⟨0, by omega⟩).val
  hr0 : ∀ (j : (⟨2, ![n, m]⟩ : Shape).Idx) (c : d.contr.Idx), (d.rhsIdx j c 0).val = (c ⟨0, by omega⟩).val
  hr1 : ∀ (j : (⟨2, ![n, m]⟩ : Shape).Idx) (c : d.contr.Idx), (d.rhsIdx j c 1).val = (j 1).val

/-- The matrix unit's product onto the zero accumulator is the product array. -/
theorem matmul_zero_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (lhs : FVec Ideal (⟨2, ![n, k]⟩ : Shape) φ₁) (rhs : FVec Ideal (⟨2, ![k, m]⟩ : Shape) φ₂) :
    FloatOps.matmul d prec lhs rhs (constant (F := Ideal) (⟨2, ![n, m]⟩ : Shape) .f32 0x00000000#32) = mm lhs rhs := by
  funext i
  obtain ⟨p, q, rfl⟩ : ∃ (p : Fin n) (q : Fin m), i = ix2 p q := ⟨i 0, i 1, eq_ix2 i⟩
  rw [matmul_zero_entry d prec h.hr h.hs h.hl0 h.hl1 h.hr0 h.hr1 lhs rhs p q, mm_ix2]

/-- The host's dot_general at one pair of coordinates is the product's entry. -/
theorem dotGeneral_entry {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) (p : Fin n) (q : Fin m) :
    FloatOps.dotGeneral d prec sched lhs rhs (ix2 p q) = entry lhs rhs p q := by
  rw [Ideal.dotGeneral_apply, ← Equiv.sum_comp (contrEquiv1 d k h.hr h.hs).symm]
  unfold entry
  refine Finset.sum_congr rfl fun l _ => ?_
  have hk := contrEquiv1_symm_val d k h.hr h.hs l
  have el : d.lhsIdx (ix2 p q) ((contrEquiv1 d k h.hr h.hs).symm l) = ix2 p l := funext fun a => Fin.ext (by
    match a with
    | ⟨0, _⟩ => exact h.hl0 _ _
    | ⟨1, _⟩ => exact (h.hl1 _ _).trans hk)
  have er : d.rhsIdx (ix2 p q) ((contrEquiv1 d k h.hr h.hs).symm l) = ix2 l q := funext fun a => Fin.ext (by
    match a with
    | ⟨0, _⟩ => exact (h.hr0 _ _).trans hk
    | ⟨1, _⟩ => exact h.hr1 _ _)
  rw [el, er]

/-- The host's dot_general is the product array. -/
theorem dotGeneral_mm {n k m : ℕ} {φ₁ φ₂ : FTy}
    {d : DotDims (⟨2, ![n, k]⟩ : Shape) (⟨2, ![k, m]⟩ : Shape) (⟨2, ![n, m]⟩ : Shape)} (h : Plain d)
    (prec : Option ContractPrecision) (sched : HostSchedule)
    (lhs : FVec Ideal (⟨2, ![n, k]⟩ : Shape) φ₁) (rhs : FVec Ideal (⟨2, ![k, m]⟩ : Shape) φ₂) :
    FloatOps.dotGeneral d prec sched lhs rhs = mm lhs rhs := by
  funext i
  obtain ⟨p, q, rfl⟩ : ∃ (p : Fin n) (q : Fin m), i = ix2 p q := ⟨i 0, i 1, eq_ix2 i⟩
  rw [dotGeneral_entry h, mm_ix2]

/-- THE BAND LAW.  If row `p` of `a` is row `r` of `A`, entry (p, q) of (a * W1) * W2 is entry (r, q) of (A * W1) * W2. -/
theorem entry_mm_rows {N n k h m : ℕ} (A : (⟨2, ![N, k]⟩ : Shape).Idx → EReal) (a : (⟨2, ![n, k]⟩ : Shape).Idx → EReal)
    (W1 : (⟨2, ![k, h]⟩ : Shape).Idx → EReal) (W2 : (⟨2, ![h, m]⟩ : Shape).Idx → EReal) (p : Fin n) (r : Fin N)
    (hrow : ∀ l, a (ix2 p l) = A (ix2 r l)) (q : Fin m) :
    entry (mm a W1) W2 p q = entry (mm A W1) W2 r q := by
  unfold entry
  refine Finset.sum_congr rfl fun x _ => ?_
  rw [mm_ix2, mm_ix2]
  unfold entry
  rw [Finset.sum_congr rfl fun l _ => by rw [hrow l]]

end MatProd

end
-- ==== Proof.LibBand.lean ====
/-
  A band of rows of a matrix product is the product of the band.

  Entry (p, q) of a product is the sum over l of A (p, l) * W (l, q): it reads one row of the left factor.  So if the
  short array "a" holds rows o, o + 1, … of the tall array "A", then the product "a * W" at (p, q) is the product
  "A * W" at (o + p, q).  Both sides are the same sum of the same products: nothing about finiteness is used.
-/
import proofs.«138439_j25271587570231_1_alg».proof.Proof.LibMatProd

noncomputable section

open scoped BigOperators

namespace MatProd

open Idealize.ShloMosaic Idealize.ShloMosaic.ValueIdx

/-- The band of the product is the product of the band. "ha": row p of "a" is row r of "A" whenever r = o + p. -/
theorem mm_band {N n k m : ℕ} (A : (⟨2, ![N, k]⟩ : Shape).Idx → EReal) (a : (⟨2, ![n, k]⟩ : Shape).Idx → EReal)
    (W : (⟨2, ![k, m]⟩ : Shape).Idx → EReal) (o : ℕ)
    (ha : ∀ (p : Fin n) (r : Fin N), r.val = o + p.val → ∀ l : Fin k, a (ix2 p l) = A (ix2 r l))
    (j : (⟨2, ![n, m]⟩ : Shape).Idx) (i : (⟨2, ![N, m]⟩ : Shape).Idx)
    (h0 : (i 0).val = o + (j 0).val) (h1 : (i 1).val = (j 1).val) :
    mm a W j = mm A W i := by
  unfold mm entry
  have hq : (⟨(i 1).val, idx2_lt1 i⟩ : Fin m) = ⟨(j 1).val, idx2_lt1 j⟩ := Fin.ext h1
  rw [hq]
  refine Finset.sum_congr rfl fun l _ => ?_
  rw [ha ⟨(j 0).val, idx2_lt0 j⟩ ⟨(i 0).val, idx2_lt0 i⟩ h0 l]

end MatProd

end
-- ==== Proof.LibRowCol.lean ====
/-
  A vector seen as a one-column or a one-row array, and the layout operations that compute those views.

  `colOf y` is the `[n, 1]` array whose entry `(p, 0)` is `y p`; `rowOf b` the `[1, k]` array whose entry `(0, q)` is
  `b q`.  A reshape of `[n]` to `[n, 1]` is the column view and a reshape of `[k]` to `[1, k]` the row view
  (`shapeCast_col`, `shapeCast_row`); a view read at an index is the vector at ANY index with the same coordinate
  (`colOf_eq`, `rowOf_eq`), which is how a chain of broadcasts that ends in the vector is matched with the view.
  An `[a, 1]` array broadcast to `[a, b]` reads its one column in the row (`broadcastTo_a1_ab_apply`), and an `[a]`
  array cast to `[a, 1]` reads the vector in the row (`shapeCast_a_a1_apply`).  Over generic extents; indices are built
  from coordinates.
-/
import Idealize.ShloMosaic.Lib.Pipeline.Value
import Idealize.ShloMosaic.Lib.ValueIdx
import Idealize.ShloMosaic.Lib.ValueLayout

noncomputable section

namespace RowCol

open Idealize.ShloMosaic Idealize.ShloMosaic.ValueIdx

/-! ## Layout operations at coordinates -/

section Layout
variable {α : Type}

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if 1 = 1 then 0 else c.val
    exact (if_pos rfl).symm

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

end Layout

/-! ## Column and row views of a vector of extended reals -/

/-- A vector as a one-column array. -/
def colOf {n : ℕ} (y : (⟨1, ![n]⟩ : Shape).Idx → EReal) : (⟨2, ![n, 1]⟩ : Shape).Idx → EReal :=
  fun i => y (ix1 ⟨(i 0).val, idx2_lt0 i⟩)

/-- A vector as a one-row array. -/
def rowOf {k : ℕ} (b : (⟨1, ![k]⟩ : Shape).Idx → EReal) : (⟨2, ![1, k]⟩ : Shape).Idx → EReal :=
  fun i => b (ix1 ⟨(i 1).val, idx2_lt1 i⟩)

theorem colOf_ix2 {n : ℕ} (y : (⟨1, ![n]⟩ : Shape).Idx → EReal) (p : Fin n) (u : Fin 1) : colOf y (ix2 p u) = y (ix1 p) := rfl
theorem rowOf_ix2 {k : ℕ} (b : (⟨1, ![k]⟩ : Shape).Idx → EReal) (u : Fin 1) (q : Fin k) : rowOf b (ix2 u q) = b (ix1 q) := rfl

/-- The column view at an index is the vector at any index with the same row number. -/
theorem colOf_eq {n : ℕ} (y : (⟨1, ![n]⟩ : Shape).Idx → EReal) (i : (⟨2, ![n, 1]⟩ : Shape).Idx) (k : (⟨1, ![n]⟩ : Shape).Idx)
    (hk : (k 0).val = (i 0).val) : colOf y i = y k :=
  congrArg y (funext fun a => Fin.ext (match a with | ⟨0, _⟩ => hk.symm))

/-- The row view at an index is the vector at any index with the same column number. -/
theorem rowOf_eq {k : ℕ} (b : (⟨1, ![k]⟩ : Shape).Idx → EReal) (i : (⟨2, ![1, k]⟩ : Shape).Idx) (l : (⟨1, ![k]⟩ : Shape).Idx)
    (hl : (l 0).val = (i 1).val) : rowOf b i = b l :=
  congrArg b (funext fun a => Fin.ext (match a with | ⟨0, _⟩ => hl.symm))

/-- A reshape of a vector to one column is its column view. -/
theorem shapeCast_col {n : ℕ} (y : (⟨1, ![n]⟩ : Shape).Idx → EReal) (h : (⟨1, ![n]⟩ : Shape).ShapeCasts ⟨2, ![n, 1]⟩) :
    shapeCast ⟨2, ![n, 1]⟩ y h = colOf y := by
  funext i
  obtain ⟨p, u, rfl⟩ : ∃ (p : Fin n) (u : Fin 1), i = ix2 p u := ⟨i 0, i 1, eq_ix2 i⟩
  rw [shapeCast_a_a1_apply, colOf_ix2]

/-- A reshape of a vector to one row is its row view. -/
theorem shapeCast_row {k : ℕ} (b : (⟨1, ![k]⟩ : Shape).Idx → EReal) (h : (⟨1, ![k]⟩ : Shape).ShapeCasts ⟨2, ![1, k]⟩) :
    shapeCast ⟨2, ![1, k]⟩ b h = rowOf b := by
  funext i
  obtain ⟨u, q, rfl⟩ : ∃ (u : Fin 1) (q : Fin k), i = ix2 u q := ⟨i 0, i 1, eq_ix2 i⟩
  rw [shapeCast_a_1a_apply, rowOf_ix2]

end RowCol

end
-- ==== Proof.LibSageT.lean ====
/-
  One layer of a mean-aggregation graph network whose weight matrices are stored TRANSPOSED, on arrays of extended
  reals, and the operation chains that compute it.

  A layer takes, for every node r, a row A(r, ·) of aggregated neighbour features (already turned into a mean) and the
  node's own row h(r, ·).  The two weight matrices Wl, Wr are stored with one row per OUTPUT feature, so entry (r, c)
  of the result is

      ((sum over l of A(r, l) * Wl(c, l))  +  (sum over l of h(r, l) * Wr(c, l)))  +  b(c),

  followed, in every layer but the last, by the maximum with zero.  The two products are added first and the bias
  last: that is the grouping both programs use, so no re-association is needed.

  "tr W" is the matrix with the two coordinates exchanged, so that the sums above are plain matrix products
  "A * tr Wl" and "h * tr Wr"; a transpose operation with the permutation [1, 0] computes it.

  The layer is ROW-WISE: row r of the result depends on row r of A, row r of h and the parameters only.  So a band of
  rows computed from the band of A and the band of h is the band of the whole result ("layer_band").

  The mean is formed in two ways from the aggregated sum S and the clamped degree d = max(g, 1): one program
  multiplies every row by the reciprocal 1 / d computed once, the other divides every entry by d.  On the extended
  reals  x * (1 / d) = x / d  as soon as d is not zero (both sides are x times the inverse of d), and the maximum of a
  number with 1 is at least 1, hence never zero, whatever the count g is: the law needs no finiteness ("mean_eq").
-/
import Idealize.ShloMosaic.Lib.Pipeline.Value
import Idealize.ShloMosaic.Lib.ValueIdx
import Idealize.ShloMosaic.Lib.ValueLayout
import Idealize.ShloMosaic.PureOps.Ideal.Laws
import proofs.«138439_j25271587570231_1_alg».proof.Proof.LibMatProd
import proofs.«138439_j25271587570231_1_alg».proof.Proof.LibProdRows
import proofs.«138439_j25271587570231_1_alg».proof.Proof.LibBand
import proofs.«138439_j25271587570231_1_alg».proof.Proof.LibRowCol

noncomputable section

open scoped BigOperators

namespace SageT

open Idealize.ShloMosaic Idealize.ShloMosaic.ValueIdx MatProd

/-- A rank-2 array of extended reals. -/
abbrev Arr (n k : ℕ) := (⟨2, ![n, k]⟩ : Shape).Idx → EReal

/-- The float zero, kept as the word the programs spell it with. -/
def zeroF : EReal := Ideal.ofBits .f32 0x00000000#32

/-- What follows the products and the bias: the maximum with zero, or nothing (the last layer). -/
def post (relu : Bool) (z : EReal) : EReal := if relu then max z zeroF else z

theorem post_true (z : EReal) : post true z = max z zeroF := rfl
theorem post_false (z : EReal) : post false z = z := rfl

/-- The matrix with its two coordinates exchanged. -/
def tr {q k : ℕ} (W : Arr q k) : Arr k q :=
  fun i => W (ix2 (⟨(i 1).val, idx2_lt1 i⟩ : Fin q) (⟨(i 0).val, idx2_lt0 i⟩ : Fin k))

theorem tr_ix2 {q k : ℕ} (W : Arr q k) (l : Fin k) (c : Fin q) : tr W (ix2 l c) = W (ix2 c l) := rfl

/-- One layer, from the mean A, the nodes' own features h, the two weight matrices stored transposed and a one-row
    bias. -/
def layer (relu : Bool) {n k q : ℕ} (A h : Arr n k) (Wl Wr : Arr q k) (b : Arr 1 q) : Arr n q :=
  fun i => post relu ((mm A (tr Wl) i + mm h (tr Wr) i) + b (ix2 (0 : Fin 1) (⟨(i 1).val, idx2_lt1 i⟩ : Fin q)))

theorem layer_ix2 (relu : Bool) {n k q : ℕ} (A h : Arr n k) (Wl Wr : Arr q k) (b : Arr 1 q) (r : Fin n) (c : Fin q) :
    layer relu A h Wl Wr b (ix2 r c)
      = post relu ((entry A (tr Wl) r c + entry h (tr Wr) r c) + b (ix2 (0 : Fin 1) c)) := rfl

/-- To show an array is the layer it is enough to read it at every pair of coordinates. -/
theorem eq_layer (relu : Bool) {n k q : ℕ} (A h : Arr n k) (Wl Wr : Arr q k) (b : Arr 1 q) (y : Arr n q)
    (hy : ∀ (r : Fin n) (c : Fin q), y (ix2 r c)
      = post relu ((entry A (tr Wl) r c + entry h (tr Wr) r c) + b (ix2 (0 : Fin 1) c))) :
    y = layer relu A h Wl Wr b := by
  funext i
  obtain ⟨r, c, rfl⟩ : ∃ (r : Fin n) (c : Fin q), i = ix2 r c := ⟨i 0, i 1, eq_ix2 i⟩
  rw [hy, layer_ix2]

/-- Row-wise: if the short arrays a, g hold rows o, o + 1, … of the tall arrays A, h, then the layer of the short
    arrays at (p, c) is the layer of the tall arrays at (o + p, c). -/
theorem layer_band (relu : Bool) {N n k q : ℕ} (A h : Arr N k) (a g : Arr n k) (Wl Wr : Arr q k) (b : Arr 1 q) (o : ℕ)
    (ha : ∀ (p : Fin n) (r : Fin N), r.val = o + p.val → ∀ l : Fin k, a (ix2 p l) = A (ix2 r l))
    (hg : ∀ (p : Fin n) (r : Fin N), r.val = o + p.val → ∀ l : Fin k, g (ix2 p l) = h (ix2 r l))
    (j : (⟨2, ![n, q]⟩ : Shape).Idx) (i : (⟨2, ![N, q]⟩ : Shape).Idx)
    (h0 : (i 0).val = o + (j 0).val) (h1 : (i 1).val = (j 1).val) :
    layer relu a g Wl Wr b j = layer relu A h Wl Wr b i := by
  unfold layer
  rw [mm_band A a (tr Wl) o ha j i h0 h1, mm_band h g (tr Wr) o hg j i h0 h1]
  have hq : (⟨(j 1).val, idx2_lt1 j⟩ : Fin q) = ⟨(i 1).val, idx2_lt1 i⟩ := Fin.ext h1.symm
  rw [hq]

/-! ## The operation chains that compute a layer -/

/-- A transpose with the permutation [1, 0] exchanges the two coordinates. -/
theorem transpose_eq_tr {q k : ℕ} {φ : FTy} (W : FVec Ideal (⟨2, ![q, k]⟩ : Shape) φ)
    (hT : (⟨2, ![q, k]⟩ : Shape).Transposes [1, 0] (⟨2, ![k, q]⟩ : Shape)) (l : Fin k) (c : Fin q) :
    transpose (⟨2, ![k, q]⟩ : Shape) [1, 0] W hT (ix2 l c) = W (ix2 c l) :=
  transpose_apply [1, 0] W hT (ix2 l c) (ix2 c l) fun b => by
    match b with
    | ⟨0, _⟩ => rfl
    | ⟨1, _⟩ => rfl

/-- The value a kernel body stores, in front of the last maximum: two matrix-unit products onto zero accumulators
    (the roundings in front of the matrix unit are the identity on the extended reals), added, plus the one-row bias
    broadcast over the rows. -/
theorem body_core {n k q : ℕ}
    (d : DotDims (⟨2, ![n, k]⟩ : Shape) (⟨2, ![k, q]⟩ : Shape) (⟨2, ![n, q]⟩ : Shape)) (hd : Plain d)
    (x0 x1 : FVec Ideal (⟨2, ![n, k]⟩ : Shape) .f32) (x2 x3 : FVec Ideal (⟨2, ![q, k]⟩ : Shape) .f32)
    (x4 : FVec Ideal (⟨2, ![1, q]⟩ : Shape) .f32)
    (hT : (⟨2, ![q, k]⟩ : Shape).Transposes [1, 0] (⟨2, ![k, q]⟩ : Shape))
    (hb : (⟨2, ![1, q]⟩ : Shape).Broadcasts ⟨2, ![n, q]⟩) (t : FTy.bf16.bits < FTy.f32.bits) :
    addf (addf
        (FloatOps.matmul d none (truncf .bf16 x0 t) (transpose (⟨2, ![k, q]⟩ : Shape) [1, 0] (truncf .bf16 x2 t) hT)
          (constant (F := Ideal) (⟨2, ![n, q]⟩ : Shape) .f32 0x00000000#32))
        (FloatOps.matmul d none (truncf .bf16 x1 t) (transpose (⟨2, ![k, q]⟩ : Shape) [1, 0] (truncf .bf16 x3 t) hT)
          (constant (F := Ideal) (⟨2, ![n, q]⟩ : Shape) .f32 0x00000000#32)))
      (broadcastTo ⟨2, ![n, q]⟩ x4 hb)
      = layer false x0 x1 x2 x3 x4 := by
  refine eq_layer false _ _ _ _ _ _ fun r c => ?_
  rw [addf_apply, addf_apply, matmul_zero_entry d none hd.hr hd.hs hd.hl0 hd.hl1 hd.hr0 hd.hr1,
    matmul_zero_entry d none hd.hr hd.hs hd.hl0 hd.hl1 hd.hr0 hd.hr1, broadcastTo_1b_ab_apply, post_false]
  unfold entry
  refine congrArg₂ (· + ·) (congrArg₂ (· + ·) (Finset.sum_congr rfl fun l _ => ?_) (Finset.sum_congr rfl fun l _ => ?_)) rfl
  · show x0 (ix2 r l) * transpose (⟨2, ![k, q]⟩ : Shape) [1, 0] (truncf .bf16 x2 t) hT (ix2 l c) = x0 (ix2 r l) * tr x2 (ix2 l c)
    rw [transpose_eq_tr, tr_ix2]; rfl
  · show x1 (ix2 r l) * transpose (⟨2, ![k, q]⟩ : Shape) [1, 0] (truncf .bf16 x3 t) hT (ix2 l c) = x1 (ix2 r l) * tr x3 (ix2 l c)
    rw [transpose_eq_tr, tr_ix2]; rfl

/-- A layer followed by the maximum with an array of zeros is the layer with the maximum. -/
theorem max_layer {n k q : ℕ} (A h : Arr n k) (Wl Wr : Arr q k) (b : Arr 1 q) (z : Arr n q) (hz : ∀ i, z i = zeroF) :
    (fun i => max (layer false A h Wl Wr b i) (z i)) = layer true A h Wl Wr b := by
  funext i
  rw [hz]
  rfl

/-- The whole stored value of a body that ends in the maximum with a splat scalar zero. -/
theorem body_relu {n k q : ℕ}
    (d : DotDims (⟨2, ![n, k]⟩ : Shape) (⟨2, ![k, q]⟩ : Shape) (⟨2, ![n, q]⟩ : Shape)) (hd : Plain d)
    (x0 x1 : FVec Ideal (⟨2, ![n, k]⟩ : Shape) .f32) (x2 x3 : FVec Ideal (⟨2, ![q, k]⟩ : Shape) .f32)
    (x4 : FVec Ideal (⟨2, ![1, q]⟩ : Shape) .f32)
    (hT : (⟨2, ![q, k]⟩ : Shape).Transposes [1, 0] (⟨2, ![k, q]⟩ : Shape))
    (hb : (⟨2, ![1, q]⟩ : Shape).Broadcasts ⟨2, ![n, q]⟩) (t : FTy.bf16.bits < FTy.f32.bits) :
    maximumf (addf (addf
        (FloatOps.matmul d none (truncf .bf16 x0 t) (transpose (⟨2, ![k, q]⟩ : Shape) [1, 0] (truncf .bf16 x2 t) hT)
          (constant (F := Ideal) (⟨2, ![n, q]⟩ : Shape) .f32 0x00000000#32))
        (FloatOps.matmul d none (truncf .bf16 x1 t) (transpose (⟨2, ![k, q]⟩ : Shape) [1, 0] (truncf .bf16 x3 t) hT)
          (constant (F := Ideal) (⟨2, ![n, q]⟩ : Shape) .f32 0x00000000#32)))
      (broadcastTo ⟨2, ![n, q]⟩ x4 hb))
      (broadcast ⟨2, ![n, q]⟩ (Scalar.ofBits (F := Ideal) .f32 0x00000000#32))
      = layer true x0 x1 x2 x3 x4 := by
  rw [body_core d hd x0 x1 x2 x3 x4 hT hb t]
  exact max_layer _ _ _ _ _ _ fun _ => rfl

/-- A one-row view of a vector, broadcast over the rows in two steps, read at a pair of coordinates. -/
theorem bias_host_apply {n q : ℕ} (bv : FVec Ideal (⟨1, ![q]⟩ : Shape) .f32)
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (r : Fin n) (c : Fin q) :
    broadcastInDim (⟨2, ![n, q]⟩ : Shape) (![0, 1] : Fin 2 → Fin 2) h2
        (broadcastInDim (⟨2, ![1, q]⟩ : Shape) (![1] : Fin 1 → Fin 2) h1 bv) (ix2 r c) = bv (ix1 c) := by
  rw [broadcastInDim_apply _ h2 _ (ix2 r c) (ix2 (0 : Fin 1) c) (fun a => by
    match a with
    | ⟨0, _⟩ => rfl
    | ⟨1, _⟩ =>
      show c.val = if q = 1 then 0 else c.val
      split
      · have := c.isLt; omega
      · rfl)]
  exact broadcastInDim_apply _ h1 _ (ix2 (0 : Fin 1) c) (ix1 c) (fun a => by
    match a with
    | ⟨0, _⟩ =>
      show c.val = if q = 1 then 0 else c.val
      split
      · have := c.isLt; omega
      · rfl)

/-- The host's chain in front of the last maximum: each weight matrix transposed, two dot_generals, added, plus the
    bias vector broadcast in two steps. -/
theorem host_core {n k q : ℕ}
    (d : DotDims (⟨2, ![n, k]⟩ : Shape) (⟨2, ![k, q]⟩ : Shape) (⟨2, ![n, q]⟩ : Shape)) (hd : Plain d)
    (M h : FVec Ideal (⟨2, ![n, k]⟩ : Shape) .f32) (Wl Wr : FVec Ideal (⟨2, ![q, k]⟩ : Shape) .f32)
    (bv : FVec Ideal (⟨1, ![q]⟩ : Shape) .f32)
    (hT : (⟨2, ![q, k]⟩ : Shape).Transposes [1, 0] (⟨2, ![k, q]⟩ : Shape))
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2)) :
    addf (addf (Host.dotGeneral d none M (transpose (⟨2, ![k, q]⟩ : Shape) [1, 0] Wl hT))
        (Host.dotGeneral d none h (transpose (⟨2, ![k, q]⟩ : Shape) [1, 0] Wr hT)))
      (broadcastInDim (⟨2, ![n, q]⟩ : Shape) (![0, 1] : Fin 2 → Fin 2) h2
        (broadcastInDim (⟨2, ![1, q]⟩ : Shape) (![1] : Fin 1 → Fin 2) h1 bv))
      = layer false M h Wl Wr (RowCol.rowOf bv) := by
  simp only [Host.dotGeneral]
  refine eq_layer false _ _ _ _ _ _ fun r c => ?_
  rw [addf_apply, addf_apply, dotGeneral_entry hd, dotGeneral_entry hd, bias_host_apply bv h1 h2 r c, post_false,
    RowCol.rowOf_ix2]
  unfold entry
  refine congrArg₂ (· + ·) (congrArg₂ (· + ·) (Finset.sum_congr rfl fun l _ => ?_) (Finset.sum_congr rfl fun l _ => ?_)) rfl
  · rw [transpose_eq_tr, tr_ix2]
  · rw [transpose_eq_tr, tr_ix2]

/-- A host layer that ends in the maximum against a broadcast rank-0 zero. -/
theorem host_relu {n k q : ℕ}
    (d : DotDims (⟨2, ![n, k]⟩ : Shape) (⟨2, ![k, q]⟩ : Shape) (⟨2, ![n, q]⟩ : Shape)) (hd : Plain d)
    (M h : FVec Ideal (⟨2, ![n, k]⟩ : Shape) .f32) (Wl Wr : FVec Ideal (⟨2, ![q, k]⟩ : Shape) .f32)
    (bv : FVec Ideal (⟨1, ![q]⟩ : Shape) .f32)
    (hT : (⟨2, ![q, k]⟩ : Shape).Transposes [1, 0] (⟨2, ![k, q]⟩ : Shape))
    (h1 : (⟨1, ![q]⟩ : Shape).BroadcastsInDim (⟨2, ![1, q]⟩ : Shape) (![1] : Fin 1 → Fin 2))
    (h2 : (⟨2, ![1, q]⟩ : Shape).BroadcastsInDim (⟨2, ![n, q]⟩ : Shape) (![0, 1] : Fin 2 → Fin 2))
    (h0 : (⟨0, ![]⟩ : Shape).BroadcastsInDim (⟨2, ![n, q]⟩ : Shape) (![] : Fin 0 → Fin 2)) :
    maximumf
      (addf (addf (Host.dotGeneral d none M (transpose (⟨2, ![k, q]⟩ : Shape) [1, 0] Wl hT))
          (Host.dotGeneral d none h (transpose (⟨2, ![k, q]⟩ : Shape) [1, 0] Wr hT)))
        (broadcastInDim (⟨2, ![n, q]⟩ : Shape) (![0, 1] : Fin 2 → Fin 2) h2
          (broadcastInDim (⟨2, ![1, q]⟩ : Shape) (![1] : Fin 1 → Fin 2) h1 bv)))
      (broadcastInDim (⟨2, ![n, q]⟩ : Shape) (![] : Fin 0 → Fin 2) h0
        (constant (F := Ideal) (⟨0, ![]⟩ : Shape) .f32 0x00000000#32))
      = layer true M h Wl Wr (RowCol.rowOf bv) := by
  rw [host_core d hd M h Wl Wr bv hT h1 h2]
  refine max_layer _ _ _ _ _ _ fun i => ?_
  rw [broadcastInDim_apply _ h0 _ i ix0 (fun a => a.elim0), constant_apply]
  rfl

/-! ## The mean, two ways -/

/-- Multiplying by the reciprocal is dividing, off zero: both are the product with the inverse. -/
theorem mul_div_one (x : EReal) {y : EReal} (hy : y ≠ 0) : x * Ideal.div 1 y = Ideal.div x y := by
  unfold Ideal.div
  rw [if_neg hy, if_neg hy, one_mul]

/-- The float one, kept as the word the programs spell it with, is the number one. -/
def oneF : EReal := Ideal.ofBits .f32 0x3F800000#32

theorem oneF_eq : oneF = 1 := by
  unfold oneF
  simp [Ideal.ofBits, Ideal.ieee, -EReal.coe_mul]; norm_num

/-- A count clamped below at one is not zero, whatever the count. -/
theorem clamp_ne_zero (g : EReal) : max g oneF ≠ 0 := by
  have h1 : (0 : EReal) < oneF := by rw [oneF_eq]; exact zero_lt_one
  exact ne_of_gt (lt_of_lt_of_le h1 (le_max_right _ _))

/-- A vector put beside the rows of an n × k array by two broadcasts reads, at (r, l), the vector at r. -/
theorem col_host_apply {n k : ℕ} (v : FVec Ideal (⟨1, ![n]⟩ : Shape) .f32)
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2))
    (r : Fin n) (l : Fin k) :
    broadcastInDim (⟨2, ![n, k]⟩ : Shape) (![0, 1] : Fin 2 → Fin 2) hrow
        (broadcastInDim (⟨2, ![n, 1]⟩ : Shape) (![0] : Fin 1 → Fin 2) hcol v) (ix2 r l) = v (ix1 r) := by
  rw [broadcastInDim_apply _ hrow _ (ix2 r l) (ix2 r (0 : Fin 1)) (fun a => by
    match a with
    | ⟨0, _⟩ =>
      show r.val = if n = 1 then 0 else r.val
      split
      · have := r.isLt; omega
      · rfl
    | ⟨1, _⟩ => rfl)]
  exact broadcastInDim_apply _ hcol _ (ix2 r (0 : Fin 1)) (ix1 r) (fun a => by
    match a with
    | ⟨0, _⟩ =>
      show r.val = if n = 1 then 0 else r.val
      split
      · have := r.isLt; omega
      · rfl)

/-- A rank-0 constant broadcast to a vector reads the constant everywhere. -/
theorem splat_apply {n : ℕ} (w : BitVec 32)
    (h0 : (⟨0, ![]⟩ : Shape).BroadcastsInDim (⟨1, ![n]⟩ : Shape) (![] : Fin 0 → Fin 1)) (r : Fin n) :
    broadcastInDim (⟨1, ![n]⟩ : Shape) (![] : Fin 0 → Fin 1) h0 (constant (F := Ideal) (⟨0, ![]⟩ : Shape) .f32 w) (ix1 r)
      = Ideal.ofBits .f32 w := by
  rw [broadcastInDim_apply _ h0 _ (ix1 r) ix0 (fun a => a.elim0), constant_apply]

/-- The rows of S scaled by one over the clamped degree are the rows of S divided by the clamped degree. -/
theorem mean_eq {n k : ℕ} (S : FVec Ideal (⟨2, ![n, k]⟩ : Shape) .f32) (g : FVec Ideal (⟨1, ![n]⟩ : Shape) .f32)
    (h0 : (⟨0, ![]⟩ : Shape).BroadcastsInDim (⟨1, ![n]⟩ : Shape) (![] : Fin 0 → Fin 1))
    (hcol : (⟨1, ![n]⟩ : Shape).BroadcastsInDim (⟨2, ![n, 1]⟩ : Shape) (![0] : Fin 1 → Fin 2))
    (hrow : (⟨2, ![n, 1]⟩ : Shape).BroadcastsInDim (⟨2, ![n, k]⟩ : Shape) (![0, 1] : Fin 2 → Fin 2)) :
    mulf S (broadcastInDim (⟨2, ![n, k]⟩ : Shape) (![0, 1] : Fin 2 → Fin 2) hrow
        (broadcastInDim (⟨2, ![n, 1]⟩ : Shape) (![0] : Fin 1 → Fin 2) hcol
          (Host.divf (broadcastInDim (⟨1, ![n]⟩ : Shape) (![] : Fin 0 → Fin 1) h0
              (constant (F := Ideal) (⟨0, ![]⟩ : Shape) .f32 0x3F800000#32))
            (maximumf g (broadcastInDim (⟨1, ![n]⟩ : Shape) (![] : Fin 0 → Fin 1) h0
              (constant (F := Ideal) (⟨0, ![]⟩ : Shape) .f32 0x3F800000#32))))))
      = Host.divf S (broadcastInDim (⟨2, ![n, k]⟩ : Shape) (![0, 1] : Fin 2 → Fin 2) hrow
        (broadcastInDim (⟨2, ![n, 1]⟩ : Shape) (![0] : Fin 1 → Fin 2) hcol
          (maximumf g (broadcastInDim (⟨1, ![n]⟩ : Shape) (![] : Fin 0 → Fin 1) h0
            (constant (F := Ideal) (⟨0, ![]⟩ : Shape) .f32 0x3F800000#32))))) := by
  funext i
  obtain ⟨r, l, rfl⟩ : ∃ (r : Fin n) (l : Fin k), i = ix2 r l := ⟨i 0, i 1, eq_ix2 i⟩
  show S (ix2 r l) * _ = Ideal.div (S (ix2 r l)) _
  rw [col_host_apply _ hcol hrow r l, col_host_apply _ hcol hrow r l]
  show S (ix2 r l) * Ideal.div (broadcastInDim (⟨1, ![n]⟩ : Shape) (![] : Fin 0 → Fin 1) h0
      (constant (F := Ideal) (⟨0, ![]⟩ : Shape) .f32 0x3F800000#32) (ix1 r))
      (max (g (ix1 r)) (broadcastInDim (⟨1, ![n]⟩ : Shape) (![] : Fin 0 → Fin 1) h0
      (constant (F := Ideal) (⟨0, ![]⟩ : Shape) .f32 0x3F800000#32) (ix1 r)))
    = Ideal.div (S (ix2 r l)) (max (g (ix1 r)) (broadcastInDim (⟨1, ![n]⟩ : Shape) (![] : Fin 0 → Fin 1) h0
      (constant (F := Ideal) (⟨0, ![]⟩ : Shape) .f32 0x3F800000#32) (ix1 r)))
  rw [splat_apply]
  show S (ix2 r l) * Ideal.div oneF (max (g (ix1 r)) oneF) = Ideal.div (S (ix2 r l)) (max (g (ix1 r)) oneF)
  rw [oneF_eq]
  exact mul_div_one _ (by rw [← oneF_eq]; exact clamp_ne_zero _)

end SageT

end
-- ==== Proof.LibDot2.lean ====
/-
  The plain matrix product's dimension numbers, read at coordinates.

  A product of an n × k array with a k × q array that contracts the columns of the left operand against the rows of the
  right one, with no batch axes, carries the dimension numbers "left contracting [1], right contracting [0], left free
  [0], right free [1]".  For any record with these lists: one axis is contracted and its extent is k; the left operand is
  read at (row of the result, contraction position) and the right operand at (contraction position, column of the result).
-/
import Idealize.ShloMosaic.Lib.ValueIdx
import Idealize.ShloMosaic.PureOps.Ideal.Laws

namespace Dot2

open Idealize.ShloMosaic Idealize.ShloMosaic.ValueIdx

variable {n k q : ℕ} (d : DotDims (⟨2, ![n, k]⟩ : Shape) (⟨2, ![k, q]⟩ : Shape) (⟨2, ![n, q]⟩ : Shape))
  (h1 : d.lhsContracting = [1]) (h2 : d.rhsContracting = [0]) (h3 : d.lhsNonContracting = [0])
  (h4 : d.rhsNonContracting = [1]) (h5 : d.lhsBatch = []) (h6 : d.rhsBatch = [])

include h1 in
/-- One axis is contracted. -/
theorem rank_contr : d.contr.rank = 1 := by rw [d.rank_contr, h1]; rfl

include h1 in
/-- Its extent is the left operand's number of columns. -/
theorem size_contr (h0 : 0 < d.contr.rank) : d.contr.size ⟨0, h0⟩ = k := by
  have := d.size_contr 0 (by rw [h1]; exact Nat.one_pos)
  rw [this]
  simp only [h1]
  rfl

include h1 in
/-- The left operand's column is the contraction position. -/
theorem lhs1 (h0 : 0 < d.contr.rank) (j : (⟨2, ![n, q]⟩ : Shape).Idx) (c : d.contr.Idx) :
    (d.lhsIdx j c 1).val = (c ⟨0, h0⟩).val := d.lhsIdx_val_of_single h1 j c

include h2 in
/-- The right operand's row is the contraction position. -/
theorem rhs0 (h0 : 0 < d.contr.rank) (j : (⟨2, ![n, q]⟩ : Shape).Idx) (c : d.contr.Idx) :
    (d.rhsIdx j c 0).val = (c ⟨0, h0⟩).val := d.rhsIdx_val_of_single h2 j c

include h3 h5 in
/-- The left operand's row is the result's row. -/
theorem lhs0 (j : (⟨2, ![n, q]⟩ : Shape).Idx) (c : d.contr.Idx) : (d.lhsIdx j c 0).val = (j 0).val := by
  unfold DotDims.lhsIdx
  have hb : (0 : Fin 2) ∉ d.lhsBatch := by rw [h5]; exact List.not_mem_nil
  have hn : (0 : Fin 2) ∈ d.lhsNonContracting := by rw [h3]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3])

include h4 h6 h3 h5 in
/-- The right operand's column is the result's column. -/
theorem rhs1 (j : (⟨2, ![n, q]⟩ : Shape).Idx) (c : d.contr.Idx) : (d.rhsIdx j c 1).val = (j 1).val := by
  unfold DotDims.rhsIdx
  have hb : (1 : Fin 2) ∉ d.rhsBatch := by rw [h6]; exact List.not_mem_nil
  have hn : (1 : Fin 2) ∈ d.rhsNonContracting := by rw [h4]; exact List.mem_singleton.mpr rfl
  rw [dif_neg hb, dif_pos hn]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [h5, h3, h4])

end Dot2
-- ==== Proof.Region0.lean ====
/-
  What the first layer's pipelined kernel leaves in its result array, as one function of the arrays it finds.

  The grid has ten points; point t stages rows 5000 t … 5000 t + 4999 of the aggregated mean and of the node features,
  the two weight matrices and the one-row bias whole, and writes back rows 5000 t … 5000 t + 4999 of the result.  The
  body's stored value is the layer (with the maximum with zero) of its blocks; a layer is row-wise, so the block written
  at point t is the band of the layer of the whole arrays, and the ten bands cover the result array.
-/
import proofs.«138439_j25271587570231_1_alg».proof.Proof.Gen.KernelIdeal.Frame
import proofs.«138439_j25271587570231_1_alg».proof.Proof.LibSageT
import proofs.«138439_j25271587570231_1_alg».proof.Proof.LibDot2
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The matrix unit's dimension numbers contract the left operand's columns against the right operand's rows. -/
theorem plain : MatProd.Plain dot_S5000x128_S128x256_S5000x256_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

/-- The body's stored value is the layer of its five loaded blocks. -/
theorem pay_eq (x0 x1 : Vec Ideal S5000x128 .f32) (x2 x3 : Vec Ideal S256x128 .f32) (x4 : Vec Ideal S1x256 .f32) :
    k0_pay1 (F := Ideal) x0 x1 x2 x3 x4 = SageT.layer true x0 x1 x2 x3 x4 := by
  unfold k0_pay1
  simp only [shapeCast_self]
  exact SageT.body_relu _ plain x0 x1 x2 x3 x4 _ _ _

/-- The result array the region leaves, as a function of the arrays it finds. -/
def G (c : Dev nD) : S50000x256.Idx → EReal :=
  SageT.layer true (V c main_v24 : S50000x128.Idx → EReal) (V c main_arg0 : S50000x128.Idx → EReal)
    (V c main_arg2 : S256x128.Idx → EReal) (V c main_arg3 : S256x128.Idx → EReal) (V c main_v25 : S1x256.Idx → EReal)

/-- The index maps over the grid: the row-tiled windows move with the point, the parameters stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Block t of the aggregated mean is its rows 5000 t …. -/
theorem iblk_0 (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_v24 : S50000x128.Idx → EReal) k := by
  obtain ⟨e0, e1, -⟩ := idx_facts t
  unfold iblk0
  rw [View.read_apply]
  show (V c main_v24 : S50000x128.Idx → EReal) _ = _
  refine congrArg _ (funext fun a => Fin.ext ?_)
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- Block t of the node features is its rows 5000 t …. -/
theorem iblk_1 (c : Dev nD) (t : Fin cfg0.N) (x : S5000x128.Idx) (k : S50000x128.Idx)
    (hk0 : (k 0).val = 5000 * t.val + (x 0).val) (hk1 : (k 1).val = (x 1).val) :
    (iblk0 V c 1 t : Vec Ideal S5000x128 .f32) x = (V c main_arg0 : S50000x128.Idx → EReal) k := by
  obtain ⟨-, -, e0, e1, -⟩ := idx_facts t
  unfold iblk0
  rw [View.read_apply]
  show (V c main_arg0 : S50000x128.Idx → EReal) _ = _
  refine congrArg _ (funext fun a => Fin.ext ?_)
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- The first weight matrix is staged whole at every point. -/
theorem iblk_2 (c : Dev nD) (t : Fin cfg0.N) :
    (iblk0 V c 2 t : Vec Ideal S256x128 .f32) = (V c main_arg2 : S256x128.Idx → EReal) := by
  obtain ⟨-, -, -, -, e0, e1, -⟩ := idx_facts t
  funext x
  unfold iblk0
  rw [View.read_apply]
  show (V c main_arg2 : S256x128.Idx → EReal) _ = _
  refine congrArg _ (funext fun a => Fin.ext ?_)
  match a with
  | ⟨0, _⟩ => show win0_2.index t 0 * 256 + 1 * (x 0).val = (x 0).val; rw [e0]; omega
  | ⟨1, _⟩ => show win0_2.index t 1 * 128 + 1 * (x 1).val = (x 1).val; rw [e1]; omega

/-- The second weight matrix is staged whole at every point. -/
theorem iblk_3 (c : Dev nD) (t : Fin cfg0.N) :
    (iblk0 V c 3 t : Vec Ideal S256x128 .f32) = (V c main_arg3 : S256x128.Idx → EReal) := by
  obtain ⟨-, -, -, -, -, -, e0, e1, -⟩ := idx_facts t
  funext x
  unfold iblk0
  rw [View.read_apply]
  show (V c main_arg3 : S256x128.Idx → EReal) _ = _
  refine congrArg _ (funext fun a => Fin.ext ?_)
  match a with
  | ⟨0, _⟩ => show win0_3.index t 0 * 256 + 1 * (x 0).val = (x 0).val; rw [e0]; omega
  | ⟨1, _⟩ => show win0_3.index t 1 * 128 + 1 * (x 1).val = (x 1).val; rw [e1]; omega

/-- The one-row bias is staged whole at every point. -/
theorem iblk_4 (c : Dev nD) (t : Fin cfg0.N) :
    (iblk0 V c 4 t : Vec Ideal S1x256 .f32) = (V c main_v25 : S1x256.Idx → EReal) := by
  obtain ⟨-, -, -, -, -, -, -, -, e0, e1, -⟩ := idx_facts t
  funext x
  unfold iblk0
  rw [View.read_apply]
  show (V c main_v25 : S1x256.Idx → EReal) _ = _
  refine congrArg _ (funext fun a => Fin.ext ?_)
  match a with
  | ⟨0, _⟩ => show win0_4.index t 0 * 1 + 1 * (x 0).val = (x 0).val; rw [e0]; omega
  | ⟨1, _⟩ => show win0_4.index t 1 * 256 + 1 * (x 1).val = (x 1).val; rw [e1]; omega

/-- What point t writes back is block t of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S256x128) hz,
    View.ld_unit_zero (S := S1x256) hz]
  rw [pay_eq, iblk_2, iblk_3, iblk_4]
  obtain ⟨-, -, -, -, -, -, -, -, -, -, e0, e1⟩ := idx_facts t
  funext j
  rw [View.read_apply]
  refine SageT.layer_band true (V c main_v24 : S50000x128.Idx → EReal) (V c main_arg0 : S50000x128.Idx → EReal)
    (iblk0 V c 0 t) (iblk0 V c 1 t) _ _ _ (5000 * t.val)
    (fun p r hr l => iblk_0 V c t (ix2 p l) (ix2 r l) hr rfl)
    (fun p r hr l => iblk_1 V c t (ix2 p l) (ix2 r l) hr rfl) j _ ?_ ?_
  · show win0_5.index t 0 * 5000 + 1 * (j 0).val = 5000 * t.val + (j 0).val
    rw [e0]; omega
  · show win0_5.index t 1 * 256 + 1 * (j 1).val = (j 1).val
    rw [e1]; omega

/-- Every row of the result array lies in the band of the point numbered by its quotient by 5000. -/
theorem cover (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 10 := N_0
  have hlt : (i 0).val / 5000 < cfg0.N := by rw [hN]; omega
  obtain ⟨-, -, -, -, -, -, -, -, -, -, e0, e1⟩ := idx_facts ⟨(i 0).val / 5000, hlt⟩
  refine ⟨⟨(i 0).val / 5000, hlt⟩, flush0_5 _, ?_⟩
  show i ∈ ((View.whole main_v26).slice (win0_5.rect ⟨(i 0).val / 5000, hlt⟩)).set
  rw [View.set_slice_whole, Rect.mem_set_unit]
  intro a
  match a with
  | ⟨0, _⟩ =>
    show win0_5.index ⟨(i 0).val / 5000, hlt⟩ 0 * 5000 ≤ (i 0).val
      ∧ (i 0).val < win0_5.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ 1 * 256 ≤ (i 1).val
      ∧ (i 1).val < win0_5.index ⟨(i 0).val / 5000, hlt⟩ 1 * 256 + 256
    rw [e1]
    omega

/-- The ten bands cover the result array, so it ends holding the layer of the arrays the region found. -/
theorem final (c : Dev nD) : (dat0 V c).arrAt 5 cfg0.N = G V c :=
  (dat0 V c).arrAt_eq_of_cover 5 (G V c) (fun t _ => flushed_eq V c t) fun i => cover i

end Cert.KernelIdeal.Reg0

end
-- ==== Proof.Region1.lean ====
/-
  What the second layer's pipelined kernel leaves in its result array, as one function of the arrays it finds.

  The grid has ten points; point t stages rows 5000 t … 5000 t + 4999 of the aggregated mean and of the node features,
  the two weight matrices and the one-row bias whole, and writes back rows 5000 t … 5000 t + 4999 of the result.  The
  body's stored value is the layer (the last one: no maximum) of its blocks; a layer is row-wise, so the block written
  at point t is the band of the layer of the whole arrays, and the ten bands cover the result array.
-/
import proofs.«138439_j25271587570231_1_alg».proof.Proof.Gen.KernelIdeal.Frame
import proofs.«138439_j25271587570231_1_alg».proof.Proof.LibSageT
import proofs.«138439_j25271587570231_1_alg».proof.Proof.LibDot2
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Reg1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The matrix unit's dimension numbers contract the left operand's columns against the right operand's rows. -/
theorem plain : MatProd.Plain dot_S5000x256_S256x128_S5000x128_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

/-- The body's stored value is the layer of its five loaded blocks. -/
theorem pay_eq (x0 x1 : Vec Ideal S5000x256 .f32) (x2 x3 : Vec Ideal S128x256 .f32) (x4 : Vec Ideal S1x128 .f32) :
    k1_pay1 (F := Ideal) x0 x1 x2 x3 x4 = SageT.layer false x0 x1 x2 x3 x4 := by
  unfold k1_pay1
  simp only [shapeCast_self]
  exact SageT.body_core _ plain x0 x1 x2 x3 x4 _ _ _

/-- The result array the region leaves, as a function of the arrays it finds. -/
def G (c : Dev nD) : S50000x128.Idx → EReal :=
  SageT.layer false (V c main_v38 : S50000x256.Idx → EReal) (V c main_v26 : S50000x256.Idx → EReal)
    (V c main_arg5 : S128x256.Idx → EReal) (V c main_arg6 : S128x256.Idx → EReal) (V c main_v39 : S1x128.Idx → EReal)

/-- The index maps over the grid: the row-tiled windows move with the point, the parameters stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of the aggregated mean is its rows 5000 t …. -/
theorem iblk_0 (c : Dev nD) (t : Fin cfg1.N) (x : S5000x256.Idx) (k : S50000x256.Idx)
    (hk0 : (k 0).val = 5000 * t.val + (x 0).val) (hk1 : (k 1).val = (x 1).val) :
    (iblk1 V c 0 t : Vec Ideal S5000x256 .f32) x = (V c main_v38 : S50000x256.Idx → EReal) k := by
  obtain ⟨e0, e1, -⟩ := idx_facts t
  unfold iblk1
  rw [View.read_apply]
  show (V c main_v38 : S50000x256.Idx → EReal) _ = _
  refine congrArg _ (funext fun a => Fin.ext ?_)
  match a with
  | ⟨0, _⟩ => show win1_0.index t 0 * 5000 + 1 * (x 0).val = (k 0).val; rw [e0, hk0]; omega
  | ⟨1, _⟩ => show win1_0.index t 1 * 256 + 1 * (x 1).val = (k 1).val; rw [e1, hk1]; omega

/-- Block t of the node features is its rows 5000 t …. -/
theorem iblk_1 (c : Dev nD) (t : Fin cfg1.N) (x : S5000x256.Idx) (k : S50000x256.Idx)
    (hk0 : (k 0).val = 5000 * t.val + (x 0).val) (hk1 : (k 1).val = (x 1).val) :
    (iblk1 V c 1 t : Vec Ideal S5000x256 .f32) x = (V c main_v26 : S50000x256.Idx → EReal) k := by
  obtain ⟨-, -, e0, e1, -⟩ := idx_facts t
  unfold iblk1
  rw [View.read_apply]
  show (V c main_v26 : S50000x256.Idx → EReal) _ = _
  refine congrArg _ (funext fun a => Fin.ext ?_)
  match a with
  | ⟨0, _⟩ => show win1_1.index t 0 * 5000 + 1 * (x 0).val = (k 0).val; rw [e0, hk0]; omega
  | ⟨1, _⟩ => show win1_1.index t 1 * 256 + 1 * (x 1).val = (k 1).val; rw [e1, hk1]; omega

/-- The first weight matrix is staged whole at every point. -/
theorem iblk_2 (c : Dev nD) (t : Fin cfg1.N) :
    (iblk1 V c 2 t : Vec Ideal S128x256 .f32) = (V c main_arg5 : S128x256.Idx → EReal) := by
  obtain ⟨-, -, -, -, e0, e1, -⟩ := idx_facts t
  funext x
  unfold iblk1
  rw [View.read_apply]
  show (V c main_arg5 : S128x256.Idx → EReal) _ = _
  refine congrArg _ (funext fun a => Fin.ext ?_)
  match a with
  | ⟨0, _⟩ => show win1_2.index t 0 * 128 + 1 * (x 0).val = (x 0).val; rw [e0]; omega
  | ⟨1, _⟩ => show win1_2.index t 1 * 256 + 1 * (x 1).val = (x 1).val; rw [e1]; omega

/-- The second weight matrix is staged whole at every point. -/
theorem iblk_3 (c : Dev nD) (t : Fin cfg1.N) :
    (iblk1 V c 3 t : Vec Ideal S128x256 .f32) = (V c main_arg6 : S128x256.Idx → EReal) := by
  obtain ⟨-, -, -, -, -, -, e0, e1, -⟩ := idx_facts t
  funext x
  unfold iblk1
  rw [View.read_apply]
  show (V c main_arg6 : S128x256.Idx → EReal) _ = _
  refine congrArg _ (funext fun a => Fin.ext ?_)
  match a with
  | ⟨0, _⟩ => show win1_3.index t 0 * 128 + 1 * (x 0).val = (x 0).val; rw [e0]; omega
  | ⟨1, _⟩ => show win1_3.index t 1 * 256 + 1 * (x 1).val = (x 1).val; rw [e1]; omega

/-- The one-row bias is staged whole at every point. -/
theorem iblk_4 (c : Dev nD) (t : Fin cfg1.N) :
    (iblk1 V c 4 t : Vec Ideal S1x128 .f32) = (V c main_v39 : S1x128.Idx → EReal) := by
  obtain ⟨-, -, -, -, -, -, -, -, e0, e1, -⟩ := idx_facts t
  funext x
  unfold iblk1
  rw [View.read_apply]
  show (V c main_v39 : S1x128.Idx → EReal) _ = _
  refine congrArg _ (funext fun a => Fin.ext ?_)
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- What point t writes back is block t of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x256) hz, View.ld_unit_zero (S := S128x256) hz,
    View.ld_unit_zero (S := S1x128) hz]
  rw [pay_eq, iblk_2, iblk_3, iblk_4]
  obtain ⟨-, -, -, -, -, -, -, -, -, -, e0, e1⟩ := idx_facts t
  funext j
  rw [View.read_apply]
  refine SageT.layer_band false (V c main_v38 : S50000x256.Idx → EReal) (V c main_v26 : S50000x256.Idx → EReal)
    (iblk1 V c 0 t) (iblk1 V c 1 t) _ _ _ (5000 * t.val)
    (fun p r hr l => iblk_0 V c t (ix2 p l) (ix2 r l) hr rfl)
    (fun p r hr l => iblk_1 V c t (ix2 p l) (ix2 r l) hr rfl) j _ ?_ ?_
  · show win1_5.index t 0 * 5000 + 1 * (j 0).val = 5000 * t.val + (j 0).val
    rw [e0]; omega
  · show win1_5.index t 1 * 128 + 1 * (j 1).val = (j 1).val
    rw [e1]; omega

/-- Every row of the result array lies in the band of the point numbered by its quotient by 5000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, -, -, e0, e1⟩ := idx_facts ⟨(i 0).val / 5000, hlt⟩
  refine ⟨⟨(i 0).val / 5000, hlt⟩, flush1_5 _, ?_⟩
  show i ∈ ((View.whole main_v40).slice (win1_5.rect ⟨(i 0).val / 5000, hlt⟩)).set
  rw [View.set_slice_whole, Rect.mem_set_unit]
  intro a
  match a with
  | ⟨0, _⟩ =>
    show win1_5.index ⟨(i 0).val / 5000, hlt⟩ 0 * 5000 ≤ (i 0).val
      ∧ (i 0).val < win1_5.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_5.index ⟨(i 0).val / 5000, hlt⟩ 1 * 128 ≤ (i 1).val
      ∧ (i 1).val < win1_5.index ⟨(i 0).val / 5000, hlt⟩ 1 * 128 + 128
    rw [e1]
    omega

/-- The ten bands cover the result array, so it ends holding the layer of the arrays the region found. -/
theorem final (c : Dev nD) : (dat1 V c).arrAt 5 cfg1.N = G V c :=
  (dat1 V c).arrAt_eq_of_cover 5 (G V c) (fun t _ => flushed_eq V c t) fun i => cover i

end Cert.KernelIdeal.Reg1

end
-- ==== Proof.Net.lean ====
/-
  The two-layer network as each program computes it, on whole arrays of extended reals, and the equation between the
  two.

  Both programs read the edge list the same way: row 0 holds the source node of each edge (negative ids wrapped once
  by the number of nodes), row 1 the destination.  "agg" gathers the rows of a feature array at the sources and adds
  them up at the destinations (rows the programs' gather and scatter leave out are left out the same way on both sides:
  these are the same operations on the same operands); "cnt" counts the edges arriving at each node and "clamp" is the
  maximum of that count and one.

  One program forms the mean as  agg * (1 / clamp)  with the reciprocal computed once, the other as  agg / clamp;
  after that each layer is  ((mean * Wl^T) + (own * Wr^T)) + bias,  the first followed by the maximum with zero, the
  bias seen as a one-row array.  The two means are one array ("SageT.mean_eq": clamp is at least one, hence not zero),
  so the two networks are one function of the eight arguments.
-/
import proofs.«138439_j25271587570231_1_alg».proof.Proof.Gen.KernelIdeal
import proofs.«138439_j25271587570231_1_alg».proof.Proof.LibSageT

set_option maxRecDepth 16384

noncomputable section

namespace Cert.Net

open Cert.KernelIdeal Cert.KernelIdeal.Facts₀ Cert.KernelIdeal.Facts Idealize.ShloMosaic Idealize.ShloMosaic.ValueIdx

abbrev Edges := IVec S2x640000 32
abbrev Ids := IVec S640000 32
abbrev IdCol := IVec S640000x1 32
abbrev F128 := FVec Ideal S50000x128 .f32
abbrev F256 := FVec Ideal S50000x256 .f32
abbrev NodeVec := FVec Ideal S50000 .f32
abbrev NodeCol := FVec Ideal S50000x1 .f32
abbrev W1 := FVec Ideal S256x128 .f32
abbrev W2 := FVec Ideal S128x256 .f32
abbrev B1 := FVec Ideal S256 .f32
abbrev B2 := FVec Ideal S128 .f32

/-- Row 0 of the edge list: the sources as written. -/
def srcRaw (e : Edges) : Ids :=
  shapeCast _ (extractStridedSlice S1x640000 ![0, 0] e slices_S2x640000_S1x640000_0_0) shapeCasts_S1x640000_S640000

/-- Row 1 of the edge list: the destinations. -/
def dstRaw (e : Edges) : Ids :=
  shapeCast _ (extractStridedSlice S1x640000 ![1, 0] e slices_S2x640000_S1x640000_1_0) shapeCasts_S1x640000_S640000

/-- The destinations as a one-column index array. -/
def dstE (e : Edges) : IdCol := broadcastInDim S640000x1 ![0] bcast_S640000_S640000x1_0 (dstRaw e)

/-- The sources, a negative id wrapped once by the number of nodes, as a one-column index array. -/
def srcE (e : Edges) : IdCol :=
  broadcastInDim S640000x1 ![0] bcast_S640000_S640000x1_0
    (select (cmpi .slt (srcRaw e) (broadcastInDim S640000 ![] bcast_S_S640000 (constantI S_ 32 0#32)))
      (addi (srcRaw e) (broadcastInDim S640000 ![] bcast_S_S640000 (constantI S_ 32 50000#32))) (srcRaw e))

/-- The vector of ones over the nodes. -/
def ones : NodeVec := broadcastInDim S50000 ![] bcast_S_S50000 (constant (F := Ideal) S_ .f32 0x3F800000#32)

/-- How many edges arrive at each node. -/
def cnt (e : Edges) : NodeVec :=
  Host.scatterAdd scatter_S50000_S640000x1_S640000_n_0_0_1
    (broadcastInDim S50000 ![] bcast_S_S50000 (constant (F := Ideal) S_ .f32 0x00000000#32)) (dstE e)
    (broadcastInDim S640000 ![] bcast_S_S640000 (constant (F := Ideal) S_ .f32 0x3F800000#32))

/-- The count clamped below at one. -/
def clamp (e : Edges) : NodeVec := maximumf (cnt e) ones

/-- One over the clamped count, as a one-column array. -/
def invCol (e : Edges) : NodeCol := broadcastInDim S50000x1 ![0] bcast_S50000_S50000x1_0 (Host.divf ones (clamp e))

/-- The clamped count as a one-column array. -/
def clampCol (e : Edges) : NodeCol := broadcastInDim S50000x1 ![0] bcast_S50000_S50000x1_0 (clamp e)

/-- The rows of a 128-column feature array gathered at the sources and added up at the destinations. -/
def agg128 (e : Edges) (f : F128) : F128 :=
  Host.scatterAdd scatter_S50000x128_S640000x1_S640000x128_1_0_0_1
    (broadcastInDim S50000x128 ![] bcast_S_S50000x128 (constant (F := Ideal) S_ .f32 0x00000000#32)) (dstE e)
    (Host.gather gather_S50000x128_S640000x1_S640000x128_1_0_n_n_0_1_1128 f (srcE e))

/-- The same for a 256-column feature array. -/
def agg256 (e : Edges) (f : F256) : F256 :=
  Host.scatterAdd scatter_S50000x256_S640000x1_S640000x256_1_0_0_1
    (broadcastInDim S50000x256 ![] bcast_S_S50000x256 (constant (F := Ideal) S_ .f32 0x00000000#32)) (dstE e)
    (Host.gather gather_S50000x256_S640000x1_S640000x256_1_0_n_n_0_1_1256 f (srcE e))

/-- The mean as a product with the reciprocal column. -/
def meanK1 (e : Edges) (f : F128) : F128 :=
  mulf (agg128 e f) (broadcastInDim S50000x128 ![0, 1] bcast_S50000x1_S50000x128_0_1 (invCol e))
def meanK2 (e : Edges) (f : F256) : F256 :=
  mulf (agg256 e f) (broadcastInDim S50000x256 ![0, 1] bcast_S50000x1_S50000x256_0_1 (invCol e))

/-- The mean as a quotient by the clamped count. -/
def meanR1 (e : Edges) (f : F128) : F128 :=
  Host.divf (agg128 e f) (broadcastInDim S50000x128 ![0, 1] bcast_S50000x1_S50000x128_0_1 (clampCol e))
def meanR2 (e : Edges) (f : F256) : F256 :=
  Host.divf (agg256 e f) (broadcastInDim S50000x256 ![0, 1] bcast_S50000x1_S50000x256_0_1 (clampCol e))

theorem mean1_eq (e : Edges) (f : F128) : meanK1 e f = meanR1 e f :=
  SageT.mean_eq (agg128 e f) (cnt e) bcast_S_S50000 bcast_S50000_S50000x1_0 bcast_S50000x1_S50000x128_0_1

theorem mean2_eq (e : Edges) (f : F256) : meanK2 e f = meanR2 e f :=
  SageT.mean_eq (agg256 e f) (cnt e) bcast_S_S50000 bcast_S50000_S50000x1_0 bcast_S50000x1_S50000x256_0_1

/-- The hidden layer, the mean formed with the reciprocal, the bias reshaped to one row. -/
def hK (e : Edges) (x : F128) (Wl Wr : W1) (b : B1) : F256 :=
  SageT.layer true (meanK1 e x) x Wl Wr (shapeCast S1x256 b shapeCasts_S256_S1x256)

/-- The hidden layer, the mean formed by division, the bias seen as one row. -/
def hR (e : Edges) (x : F128) (Wl Wr : W1) (b : B1) : F256 :=
  SageT.layer true (meanR1 e x) x Wl Wr (RowCol.rowOf b)

theorem h_eq (e : Edges) (x : F128) (Wl Wr : W1) (b : B1) : hK e x Wl Wr b = hR e x Wl Wr b := by
  unfold hK hR
  rw [mean1_eq, RowCol.shapeCast_row]

/-- The network, the means formed with the reciprocal. -/
def netK (x : F128) (e : Edges) (W1l W1r : W1) (b1 : B1) (W2l W2r : W2) (b2 : B2) : F128 :=
  SageT.layer false (meanK2 e (hK e x W1l W1r b1)) (hK e x W1l W1r b1) W2l W2r
    (shapeCast S1x128 b2 shapeCasts_S128_S1x128)

/-- The network, the means formed by division. -/
def netR (x : F128) (e : Edges) (W1l W1r : W1) (b1 : B1) (W2l W2r : W2) (b2 : B2) : F128 :=
  SageT.layer false (meanR2 e (hR e x W1l W1r b1)) (hR e x W1l W1r b1) W2l W2r (RowCol.rowOf b2)

/-- The two networks are one function. -/
theorem net_eq (x : F128) (e : Edges) (W1l W1r : W1) (b1 : B1) (W2l W2r : W2) (b2 : B2) :
    netK x e W1l W1r b1 W2l W2r b2 = netR x e W1l W1r b1 W2l W2r b2 := by
  unfold netK netR
  rw [h_eq, mean2_eq, RowCol.shapeCast_row]

end Cert.Net

end
-- ==== Proof.KHost.lean ====
/-
  The idealized kernel's result array as a function of the eight arguments.

  The contents of the buffers at each segment boundary are read back one segment at a time: the host operations in
  front of the first kernel leave the mean (aggregate times reciprocal column) and the reshaped bias; the first kernel
  leaves the hidden layer of what it found; the host operations in front of the second kernel aggregate the hidden
  layer with the same edge list and the same reciprocal column; the second kernel leaves the last layer of what it
  found.  Together: the network "netK" of the arguments.
-/
import proofs.«138439_j25271587570231_1_alg».proof.Proof.Gen.KernelIdeal.Frame
import proofs.«138439_j25271587570231_1_alg».proof.Proof.Region0
import proofs.«138439_j25271587570231_1_alg».proof.Proof.Region1
import proofs.«138439_j25271587570231_1_alg».proof.Proof.Net
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.KHost

open Cert.KernelIdeal Cert.KernelIdeal.Gen Cert.Net

variable (m : (ℓ : Loc nD τ sig) → Buf (Elt Ideal) ℓ) (ρ : Dev nD → PrngReg)

/-! ## The arguments as launched -/

abbrev a0 (c : Dev nD) : F128 := m ((c : Thread nD τ).loc main_arg0)
abbrev a1 (c : Dev nD) : Edges := m ((c : Thread nD τ).loc main_arg1)
abbrev a2 (c : Dev nD) : Net.W1 := m ((c : Thread nD τ).loc main_arg2)
abbrev a3 (c : Dev nD) : Net.W1 := m ((c : Thread nD τ).loc main_arg3)
abbrev a4 (c : Dev nD) : B1 := m ((c : Thread nD τ).loc main_arg4)
abbrev a5 (c : Dev nD) : Net.W2 := m ((c : Thread nD τ).loc main_arg5)
abbrev a6 (c : Dev nD) : Net.W2 := m ((c : Thread nD τ).loc main_arg6)
abbrev a7 (c : Dev nD) : B2 := m ((c : Thread nD τ).loc main_arg7)

/-! ## What the first kernel finds -/

theorem V1_v24 (c : Dev nD) : V1 m ρ c main_v24 = meanK1 (a1 m c) (a0 m c) := by
  show StableHlo.after hostOps0 (W0 m ρ c) (Proc.devRef .tc main_v24) = _
  after_results_simp <;> rfl

theorem V1_arg0 (c : Dev nD) : V1 m ρ c main_arg0 = a0 m c := by
  show StableHlo.after hostOps0 (W0 m ρ c) (Proc.devRef .tc main_arg0) = _
  after_results_simp <;> rfl

theorem V1_arg2 (c : Dev nD) : V1 m ρ c main_arg2 = a2 m c := by
  show StableHlo.after hostOps0 (W0 m ρ c) (Proc.devRef .tc main_arg2) = _
  after_results_simp <;> rfl

theorem V1_arg3 (c : Dev nD) : V1 m ρ c main_arg3 = a3 m c := by
  show StableHlo.after hostOps0 (W0 m ρ c) (Proc.devRef .tc main_arg3) = _
  after_results_simp <;> rfl

theorem V1_v25 (c : Dev nD) : V1 m ρ c main_v25 = shapeCast S1x256 (a4 m c) shapeCasts_S256_S1x256 := by
  show StableHlo.after hostOps0 (W0 m ρ c) (Proc.devRef .tc main_v25) = _
  after_results_simp <;> rfl

/-! ## What the first kernel leaves, and what the host operations after it read -/

/-- The hidden layer. -/
theorem W2_v26 (c : Dev nD) :
    W2 m ρ c (Proc.devRef .tc main_v26) = hK (a1 m c) (a0 m c) (a2 m c) (a3 m c) (a4 m c) := by
  rw [show W2 m ρ c (Proc.devRef .tc main_v26) = (dat0 (V1 m ρ) c).arrAt 5 cfg0.N from W2_arr m ρ c 5, Reg0.final]
  unfold Reg0.G
  rw [V1_v24, V1_arg0, V1_arg2, V1_arg3, V1_v25]
  rfl

theorem W2_v1 (c : Dev nD) : W2 m ρ c (Proc.devRef .tc main_v1) = srcRaw (a1 m c) := by
  rw [W2_of_ne m ρ c main_v1 (by decide)]
  show StableHlo.after hostOps0 (W0 m ρ c) (Proc.devRef .tc main_v1) = _
  after_results_simp <;> rfl

theorem W2_v3 (c : Dev nD) : W2 m ρ c (Proc.devRef .tc main_v3) = dstRaw (a1 m c) := by
  rw [W2_of_ne m ρ c main_v3 (by decide)]
  show StableHlo.after hostOps0 (W0 m ρ c) (Proc.devRef .tc main_v3) = _
  after_results_simp <;> rfl

theorem W2_v12 (c : Dev nD) : W2 m ρ c (Proc.devRef .tc main_v12) = invCol (a1 m c) := by
  rw [W2_of_ne m ρ c main_v12 (by decide)]
  show StableHlo.after hostOps0 (W0 m ρ c) (Proc.devRef .tc main_v12) = _
  after_results_simp <;> rfl

theorem W2_arg5 (c : Dev nD) : W2 m ρ c (Proc.devRef .tc main_arg5) = a5 m c := by
  rw [W2_of_ne m ρ c main_arg5 (by decide)]
  show StableHlo.after hostOps0 (W0 m ρ c) (Proc.devRef .tc main_arg5) = _
  after_results_simp <;> rfl

theorem W2_arg6 (c : Dev nD) : W2 m ρ c (Proc.devRef .tc main_arg6) = a6 m c := by
  rw [W2_of_ne m ρ c main_arg6 (by decide)]
  show StableHlo.after hostOps0 (W0 m ρ c) (Proc.devRef .tc main_arg6) = _
  after_results_simp <;> rfl

theorem W2_arg7 (c : Dev nD) : W2 m ρ c (Proc.devRef .tc main_arg7) = a7 m c := by
  rw [W2_of_ne m ρ c main_arg7 (by decide)]
  show StableHlo.after hostOps0 (W0 m ρ c) (Proc.devRef .tc main_arg7) = _
  after_results_simp <;> rfl

/-! ## What the second kernel finds -/

theorem V3_v38 (c : Dev nD) :
    V3 m ρ c main_v38 = meanK2 (a1 m c) (hK (a1 m c) (a0 m c) (a2 m c) (a3 m c) (a4 m c)) := by
  show StableHlo.after hostOps1 (W2 m ρ c) (Proc.devRef .tc main_v38) = _
  after_results_simp
  rw [W2_v26, W2_v1, W2_v3, W2_v12]
  rfl

theorem V3_v26 (c : Dev nD) : V3 m ρ c main_v26 = hK (a1 m c) (a0 m c) (a2 m c) (a3 m c) (a4 m c) := by
  show StableHlo.after hostOps1 (W2 m ρ c) (Proc.devRef .tc main_v26) = _
  after_results_simp
  exact W2_v26 m ρ c

theorem V3_arg5 (c : Dev nD) : V3 m ρ c main_arg5 = a5 m c := by
  show StableHlo.after hostOps1 (W2 m ρ c) (Proc.devRef .tc main_arg5) = _
  after_results_simp
  exact W2_arg5 m ρ c

theorem V3_arg6 (c : Dev nD) : V3 m ρ c main_arg6 = a6 m c := by
  show StableHlo.after hostOps1 (W2 m ρ c) (Proc.devRef .tc main_arg6) = _
  after_results_simp
  exact W2_arg6 m ρ c

theorem V3_v39 (c : Dev nD) : V3 m ρ c main_v39 = shapeCast S1x128 (a7 m c) shapeCasts_S128_S1x128 := by
  show StableHlo.after hostOps1 (W2 m ρ c) (Proc.devRef .tc main_v39) = _
  after_results_simp
  rw [W2_arg7]
  rfl

/-! ## The result -/

/-- The result buffer's last recorded contents are the network of the arguments. -/
theorem result (c : Dev nD) :
    W4 m ρ c (Proc.devRef .tc main_v40)
      = netK (a0 m c) (a1 m c) (a2 m c) (a3 m c) (a4 m c) (a5 m c) (a6 m c) (a7 m c) := by
  rw [show W4 m ρ c (Proc.devRef .tc main_v40) = (dat1 (V3 m ρ) c).arrAt 5 cfg1.N from W4_arr m ρ c 5, Reg1.final]
  unfold Reg1.G
  rw [V3_v38, V3_v26, V3_arg5, V3_arg6, V3_v39]
  rfl

end Cert.KernelIdeal.KHost

end
-- ==== Proof.RefSide.lean ====
/-
  The idealized reference's result as a function of the eight arguments.

  Its run leaves the result at the composed term of its host operations.  In that term each layer is spelt "transpose
  both weight matrices, two dot_generals, add, add the bias broadcast in two steps" (and, for the first layer, the
  maximum against a broadcast zero): that chain is the layer of "SageT", so the term is the network "netR" — the means
  formed by division — of the arguments.
-/
import proofs.«138439_j25271587570231_1_alg».proof.Proof.Gen.ReferenceIdeal.Run
import proofs.«138439_j25271587570231_1_alg».proof.Proof.Net
import proofs.«138439_j25271587570231_1_alg».proof.Proof.LibDot2

set_option maxRecDepth 16384

noncomputable section

open Idealize.ShloMosaic Idealize.ShloMosaic.TcCoe Idealize.SL.Sem

namespace Cert.ReferenceIdeal.RefSide

open Cert.ReferenceIdeal Cert.ReferenceIdeal.Gen Cert.ReferenceIdeal.Value
open Cert.ReferenceIdeal.Facts₀ Cert.ReferenceIdeal.Facts

/-- The first layer's dot_general contracts the left operand's columns against the right operand's rows. -/
theorem plain1 : MatProd.Plain dot_S50000x128_S128x256_S50000x256_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

/-- So does the second layer's. -/
theorem plain2 : MatProd.Plain dot_S50000x256_S256x128_S50000x128_1_0_0_1_n_n :=
  ⟨Dot2.rank_contr _ rfl, Dot2.size_contr _ rfl _, Dot2.lhs0 _ rfl rfl, Dot2.lhs1 _ rfl _, Dot2.rhs0 _ rfl _,
    Dot2.rhs1 _ rfl rfl rfl rfl⟩

/-- The reference's result term is the network, the means formed by division. -/
theorem value (m : (ℓ : Loc nD τ sig) → Buf (Elt Ideal) ℓ) (c : Dev nD) :
    res_main_v58 (F := Ideal) m c
      = Cert.Net.netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold res_main_v58
  rw [SageT.host_relu dot_S50000x128_S128x256_S50000x256_1_0_0_1_n_n plain1 _ _ _ _ _ _ _ _ _]
  rw [SageT.host_core dot_S50000x256_S256x128_S50000x128_1_0_0_1_n_n plain2 _ _ _ _ _ _ _ _]
  rfl

end Cert.ReferenceIdeal.RefSide

end
-- ==== Proof.lean ====
/-
  The proof of the certificate's claim: a two-layer mean-aggregation graph network computed by two pipelined kernels
  with host gathers and scatters between them, against the plain host computation.

  On the extended reals both programs compute, for every node, the mean of its in-neighbours' features — the kernel's
  program as the aggregated sum times 1 / max(count, 1), the reference as the aggregated sum divided by max(count, 1);
  these agree because max(count, 1) is never zero — and then  ((mean * Wl^T) + (own * Wr^T)) + bias  per layer, the
  first layer followed by the maximum with zero.  The kernels tile the nodes into ten bands of 5000 rows; a layer is
  row-wise, so the bands written back are the bands of the layer of the whole arrays.  Rounding to a narrower format in
  front of the matrix unit is the identity on the extended reals, and a matrix-unit product onto a zero accumulator
  and a dot_general are the same sums.  No finiteness of the inputs is used.

  The three frames: the two kernels' programs by the generated frame certificate, the reference's by its generated run
  with the result dropped.  The idealization rewrote nothing, so "preserves" is trivial.
-/
import proofs.«138439_j25271587570231_1_alg».proof.Defs
import proofs.«138439_j25271587570231_1_alg».proof.Proof.Gen.Kernel
import proofs.«138439_j25271587570231_1_alg».proof.Proof.Gen.Kernel.Skeleton
import proofs.«138439_j25271587570231_1_alg».proof.Proof.Gen.Kernel.Launch
import proofs.«138439_j25271587570231_1_alg».proof.Proof.Gen.Kernel.Points
import proofs.«138439_j25271587570231_1_alg».proof.Proof.Gen.Kernel.Frame
import proofs.«138439_j25271587570231_1_alg».proof.Proof.Gen.KernelIdeal
import proofs.«138439_j25271587570231_1_alg».proof.Proof.Gen.KernelIdeal.Skeleton
import proofs.«138439_j25271587570231_1_alg».proof.Proof.Gen.KernelIdeal.Launch
import proofs.«138439_j25271587570231_1_alg».proof.Proof.Gen.KernelIdeal.Points
import proofs.«138439_j25271587570231_1_alg».proof.Proof.Gen.KernelIdeal.Frame
import proofs.«138439_j25271587570231_1_alg».proof.Proof.Gen.ReferenceIdeal
import proofs.«138439_j25271587570231_1_alg».proof.Proof.Gen.ReferenceIdeal.Run
import proofs.«138439_j25271587570231_1_alg».proof.Proof.Gen.Pre_finite_inputs
import proofs.«138439_j25271587570231_1_alg».proof.Proof.KRun
import proofs.«138439_j25271587570231_1_alg».proof.Proof.KHost
import proofs.«138439_j25271587570231_1_alg».proof.Proof.RefSide
import proofs.«138439_j25271587570231_1_alg».proof.Proof.Net
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the network of the arguments: the kernel's program with the means formed by
    the reciprocal, the reference with the means formed by division, one function. -/
theorem algebraic : Cert.algebraic_KernelIdeal_ReferenceIdeal := by
  intro m ρ m' ρ' _ hagree
  refine ⟨fun c => Cert.Net.netK (Cert.KernelIdeal.KHost.a0 m c) (Cert.KernelIdeal.KHost.a1 m c)
      (Cert.KernelIdeal.KHost.a2 m c) (Cert.KernelIdeal.KHost.a3 m c) (Cert.KernelIdeal.KHost.a4 m c)
      (Cert.KernelIdeal.KHost.a5 m c) (Cert.KernelIdeal.KHost.a6 m c) (Cert.KernelIdeal.KHost.a7 m c), ?_, ?_⟩
  · exact (θ_run Cert.KernelIdeal.defs _ _).mono
      (fun r h c => ⟨(h c).1.trans (Cert.KernelIdeal.KHost.result m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefSide.value, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.Net.net_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
